-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  IdealRules.sign_bit.Statement Cert.KernelIdeal.S512x4096 .f32

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v11) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x8192 : Shape := ⟨2, ![4096, 8192]⟩
abbrev S4096x1 : Shape := ⟨2, ![4096, 1]⟩
abbrev S_ : Shape := ⟨0, ![]⟩

class Facts : Prop where
  bcast_S_S4096x8192 : S_.BroadcastsInDim S4096x8192 (![] : Fin 0 → Fin S4096x8192.rank)
  reducesTo_S4096x8192_S_d0_1 : S4096x8192.ReducesTo [0, 1] S_
  h_S_ : 0 < S_.numel
  bcast_S_S4096x1 : S_.BroadcastsInDim S4096x1 (![] : Fin 0 → Fin S4096x1.rank)
  reducesTo_S4096x1_S_d0_1 : S4096x1.ReducesTo [0, 1] S_

variable [Facts]

def fn {F : FTy → Type} [FloatOps F] (main_arg0 : FVec F S4096x8192 .f32) (main_arg1 : FVec F S4096x1 .f32) : IVec S_ 1 :=
  let main_v0 : FVec F S4096x8192 .f32 := Host.absf main_arg0
  let main_cst : FVec F S_ .f32 := constant S_ .f32 0x7F800000#32
  let main_v1 : FVec F S4096x8192 .f32 := broadcastInDim S4096x8192 ![] bcast_S_S4096x8192 main_cst
  let main_v2 : IVec S4096x8192 1 := cmpf .olt main_v0 main_v1
  let main_c : IVec S_ 1 := constantI S_ 1 1#1
  let main_v3 : IVec S_ 1 := (fun x v => Host.reduce IntOp.andi x v reducesTo_S4096x8192_S_d0_1 h_S_) main_v2 main_c
  let main_v4 : FVec F S4096x1 .f32 := Host.absf main_arg1
  let main_cst_0 : FVec F S_ .f32 := constant S_ .f32 0x7F800000#32
  let main_v5 : FVec F S4096x1 .f32 := broadcastInDim S4096x1 ![] bcast_S_S4096x1 main_cst_0
  let main_v6 : IVec S4096x1 1 := cmpf .olt main_v4 main_v5
  let main_c_1 : IVec S_ 1 := constantI S_ 1 1#1
  let main_v7 : IVec S_ 1 := (fun x v => Host.reduce IntOp.andi x v reducesTo_S4096x1_S_d0_1 h_S_) main_v6 main_c_1
  let main_v8 : IVec S_ 1 := andi main_v3 main_v7
  main_v8
-- ==== Kernel.lean ====
abbrev S4096x8192 : Shape := ⟨2, ![4096, 8192]⟩
abbrev S4096x1 : Shape := ⟨2, ![4096, 1]⟩
abbrev S512x4096 : Shape := ⟨2, ![512, 4096]⟩
abbrev S512x1 : Shape := ⟨2, ![512, 1]⟩

abbrev nBuf : Space → Nat
  | .hbm => 3
  | .vmem => 6
  | .smem => 0
  | _ => 0

abbrev bufTy : (tb : Table) → Fin (tcTables nBuf tb) → BufTy
  | .hbm, ⟨0, _⟩ => ⟨S4096x8192, .f32⟩
  | .hbm, ⟨1, _⟩ => ⟨S4096x1, .f32⟩
  | .hbm, ⟨2, _⟩ => ⟨S4096x8192, .f32⟩
  | .local _ .vmem, ⟨0, _⟩ => ⟨S512x4096, .f32⟩
  | .local _ .vmem, ⟨1, _⟩ => ⟨S512x4096, .f32⟩
  | .local _ .vmem, ⟨2, _⟩ => ⟨S512x1, .f32⟩
  | .local _ .vmem, ⟨3, _⟩ => ⟨S512x1, .f32⟩
  | .local _ .vmem, ⟨4, _⟩ => ⟨S512x4096, .f32⟩
  | .local _ .vmem, ⟨5, _⟩ => ⟨S512x4096, .f32⟩
  | _, _ => ⟨S4096x8192, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [BitOps F]

abbrev grid0 : Pipeline.Grid := ⟨2, ![8, 2], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S512x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S512x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S512x4096 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

class Facts₀ : Prop where
  inb_S512x4096_S512x4096_0_0 : ∀ a, (![0, 0] : Fin 2 → Nat) a + S512x4096.size a ≤ S512x4096.size a
  h_S512x4096 : 0 < S512x4096.numel
  inb_S512x1_S512x1_0_0 : ∀ a, (![0, 0] : Fin 2 → Nat) a + S512x1.size a ≤ S512x1.size a
  h_S512x1 : 0 < S512x1.numel
  broadcasts_S512x1_S512x4096 : S512x1.Broadcasts S512x4096
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x4096.size a ≤ S4096x8192.size a
  hwx0_0 : ∀ i : grid0.Coords, EltTy.bits .f32 = 32 ∨ (Rect.block (s := S4096x8192) S512x4096.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S512x1.size a ≤ S4096x1.size a
  hwx0_1 : ∀ i : grid0.Coords, EltTy.bits .f32 = 32 ∨ (Rect.block (s := S4096x1) S512x1.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S512x4096.size a ≤ S4096x8192.size a
  hwx0_2 : ∀ i : grid0.Coords, EltTy.bits .f32 = 32 ∨ (Rect.block (s := S4096x8192) S512x4096.size (cc0_transform_2 i) (hinb0_2 i)).WholeWords (EltTy.packing .f32)

variable [Facts₀]

abbrev win0_0 : Pipeline.Window sig grid0 :=
  Pipeline.Window.ofSpec (Memref.whole main_arg0) S512x4096.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S512x1.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S512x4096.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S4096x8192 : Shape := ⟨2, ![4096, 8192]⟩
abbrev S4096x1 : Shape := ⟨2, ![4096, 1]⟩
abbrev S_ : Shape := ⟨0, ![]⟩

abbrev nBuf : Space → Nat
  | .hbm => 18
  | .vmem => 0
  | .smem => 0
  | _ => 0

abbrev bufTy : (tb : Table) → Fin (tcTables nBuf tb) → BufTy
  | .hbm, ⟨0, _⟩ => ⟨S4096x8192, .f32⟩
  | .hbm, ⟨1, _⟩ => ⟨S4096x1, .f32⟩
  | .hbm, ⟨2, _⟩ => ⟨S4096x8192, .f32⟩
  | .hbm, ⟨3, _⟩ => ⟨S4096x1, .f32⟩
  | .hbm, ⟨4, _⟩ => ⟨S4096x1, .f32⟩
  | .hbm, ⟨5, _⟩ => ⟨S_, .f32⟩
  | .hbm, ⟨6, _⟩ => ⟨S4096x1, .f32⟩
  | .hbm, ⟨7, _⟩ => ⟨S4096x1, .f32⟩
  | .hbm, ⟨8, _⟩ => ⟨S_, .f32⟩
  | .hbm, ⟨9, _⟩ => ⟨S4096x1, .f32⟩
  | .hbm, ⟨10, _⟩ => ⟨S4096x1, .f32⟩
  | .hbm, ⟨11, _⟩ => ⟨S4096x8192, .f32⟩
  | .hbm, ⟨12, _⟩ => ⟨S4096x8192, .f32⟩
  | .hbm, ⟨13, _⟩ => ⟨S_, .f32⟩
  | .hbm, ⟨14, _⟩ => ⟨S4096x8192, .f32⟩
  | .hbm, ⟨15, _⟩ => ⟨S4096x8192, .f32⟩
  | .hbm, ⟨16, _⟩ => ⟨S4096x8192, .f32⟩
  | .hbm, ⟨17, _⟩ => ⟨S4096x8192, .f32⟩
  | _, _ => ⟨S4096x8192, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_cst : Ref sig .tc := ⟨.hbm, 5, rfl⟩
abbrev main_v3 : Ref sig .tc := ⟨.hbm, 6, rfl⟩
abbrev main_v4 : Ref sig .tc := ⟨.hbm, 7, rfl⟩
abbrev main_cst_0 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_call0_cst : Ref sig .tc := ⟨.hbm, 13, rfl⟩
abbrev main_call0_v0 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩

abbrev nD : Nat := 1
abbrev τ : Topo := Topo.v7x

variable {F : FTy → Type} [FloatOps F]

class Facts₀ : Prop where
  bcast_S_S4096x1 : S_.BroadcastsInDim S4096x1 (![] : Fin 0 → Fin S4096x1.rank)
  bcast_S4096x1_S4096x8192_0_1 : S4096x1.BroadcastsInDim S4096x8192 (![0, 1] : Fin 2 → Fin S4096x8192.rank)
  bcast_S_S4096x8192 : S_.BroadcastsInDim S4096x8192 (![] : Fin 0 → Fin S4096x8192.rank)

variable [Facts₀]

class Facts : Prop extends Facts₀ where

variable [Facts]
-- ==== Proof.Spec.lean ====
/-
  The mathematics of this certificate, free of any program.

  Both programs compute, at every entry `(r, k)` of a 4096 × 8192 weight array `W` with a threshold column `T`
  (4096 × 1),
      sign (W r k) · max (|W r k| − σ (T r 0)) 0,      σ t = 1 / (1 + e^(−t))  (the logistic function),
  read on the extended reals: `|w|` is `max w (−w)`, `sign` is −1 / 0 / 1 by the order (−1 at −∞, 1 at +∞), and σ has
  its limits 0 and 1 at the infinities. `elem` is that value at one entry and `G` the whole array.

  The kernel spells the sign as "±1 by `w < 0` where `|w| > 0`, and `w` itself where not" and the logistic function
  as one operation; the reference spells the sign as one operation and the logistic function as the quotient
  `1 / (1 + exp (−t))`. `kernel_elem` and `ref_elem` say that each spelling is `elem`: the first by the sign law
  (the three cases `w < 0`, `w = 0`, `0 < w`), the second because the logistic function is by definition that
  quotient. Neither law distributes, cancels or moves a factor across a sum, so neither needs the entries to be
  finite: they hold at the infinities too.
-/
import Idealize.ShloMosaic.PureOps.Ideal.Laws

noncomputable section

namespace Cert.Spec

open Idealize.ShloMosaic

/-- The weight array's shape, 4096 × 8192, -/
abbrev SW : Shape := ⟨2, ![4096, 8192]⟩
/-- and the threshold column's, 4096 × 1. -/
abbrev ST : Shape := ⟨2, ![4096, 1]⟩

/-- The threshold entry that governs weight entry `i = (r, k)`: `(r, 0)`, the one entry of row `r` of the column. -/
abbrev rowOf (i : SW.Idx) : ST.Idx := fun a => match a with
  | ⟨0, _⟩ => ⟨(i 0).val, (i 0).isLt⟩
  | ⟨1, _⟩ => ⟨0, Nat.one_pos⟩

/-- One entry of the result from the weight `w` and its row's threshold `t`: `sign w · max (|w| − σ t) 0`. -/
def elem (w t : EReal) : EReal := Ideal.sign w * max (max w (-w) - Ideal.logistic t) 0

/-- The result array: `elem` of each weight and its row's threshold. -/
def G (W : SW.Idx → EReal) (T : ST.Idx → EReal) : SW.Idx → EReal := fun i => elem (W i) (T (rowOf i))

/-- The pattern of the float `1.0` denotes the number 1. -/
theorem one_f32 : Ideal.ofBits .f32 0x3F800000#32 = 1 := IdealRules.sign_bit.ideal_onePat .f32

/-- THE KERNEL'S SPELLING at one entry: the sign chosen by comparisons (±1 by `w < 0` where `|w| > 0`, else `w`, which
    is then 0) is the sign of `w`, and the rest is `elem`'s second factor word for word, the float zero being 0. -/
theorem kernel_elem (w t : Ideal .f32) :
    FloatOps.mulf
        (Scalar.select (FloatOps.cmpf .ogt (FloatOps.absf w) (Scalar.ofBits .f32 0x00000000#32))
          (Scalar.select (FloatOps.cmpf .olt w (Scalar.ofBits .f32 0x00000000#32)) (Scalar.ofBits .f32 0xBF800000#32)
            (Scalar.ofBits .f32 0x3F800000#32)) w)
        (FloatOps.maximumf (FloatOps.subf (FloatOps.absf w) (FloatOps.logistic t)) (Scalar.ofBits .f32 0x00000000#32))
      = elem w t := by
  rw [Ideal.jnp_sign_eq_sign_f32]
  show Ideal.sign w * max (max w (-w) - Ideal.logistic t) (Ideal.ofBits .f32 0x00000000#32) = _
  rw [Ideal.ofBits_zero_f32]
  rfl

/-- THE REFERENCE'S SPELLING at one entry: its sign operation is the sign, and `1 / (1 + exp (−t))`, with both ones the
    float `1.0`, is the logistic function of `t` by that function's definition. -/
theorem ref_elem (w t : Ideal .f32) :
    FloatOps.mulf (FloatOps.hostUnary .sign w)
        (FloatOps.maximumf
          (FloatOps.subf (FloatOps.hostAbsf w)
            (FloatOps.hostDivf (FloatOps.ofBits .f32 0x3F800000#32)
              (FloatOps.addf (FloatOps.ofBits .f32 0x3F800000#32) (FloatOps.hostUnary .exp (FloatOps.hostNegf t)))))
          (FloatOps.ofBits .f32 0x00000000#32))
      = elem w t := by
  show Ideal.sign w * max (max w (-w) - Ideal.div (Ideal.ofBits .f32 0x3F800000#32)
      (Ideal.ofBits .f32 0x3F800000#32 + Ideal.exp (-t))) (Ideal.ofBits .f32 0x00000000#32) = _
  rw [one_f32, Ideal.ofBits_zero_f32]
  rfl

end Cert.Spec

end
-- ==== Proof.RefValue.lean ====
/-
  The reference's result is the specification's array `G`.

  The reference is sixteen host operations. Read at an entry `i = (r, k)`, each elementwise operation acts on its
  operands at `i`, a broadcast of a scalar constant reads the constant, and the broadcast of the 4096 × 1 logistic
  column to 4096 × 8192 reads the column at `(r, 0)` — the specification's `rowOf i`. Composed, the value at `i` is
      sign (W i) · max (|W i| − 1 / (1 + exp (−T (r, 0)))) 0,
  which is `elem (W i) (T (rowOf i))` by the reference's law of the specification (`ref_elem`).
-/
import proofs.«104819_j36532991820369_2_alg».proof.Proof.Gen.ReferenceIdeal.Read
import proofs.«104819_j36532991820369_2_alg».proof.Proof.Spec

noncomputable section

namespace Cert.ReferenceIdeal.RefValue

open Cert.ReferenceIdeal Cert.ReferenceIdeal.Read Idealize.ShloMosaic

/-- Where the broadcast of the logistic column reads it for entry `i`: the specification's `rowOf i`. -/
theorem row_eq (i : S4096x8192.Idx) : idx_main_v7 i = Cert.Spec.rowOf i :=
  funext fun a => by match a with | ⟨0, _⟩ => rfl | ⟨1, _⟩ => rfl

/-- The reference's last stage, as a function of the two argument arrays, is `G` of them: entry by entry the composed
    operations are the reference's spelling of `elem`. -/
theorem result_eq (W : (⟨S4096x8192, .f32⟩ : BufTy).Contents (Elt Ideal))
    (T : (⟨S4096x1, .f32⟩ : BufTy).Contents (Elt Ideal)) :
    val_main_v11 (F := Ideal) W T = Cert.Spec.G W T := by
  funext i
  rw [val_main_v11_apply, val_main_v10_apply, val_main_v9_apply, val_main_v8_apply, val_main_v0_apply,
    val_main_v7_apply, val_main_v6_apply, val_main_v5_apply, val_main_cst_0_apply, val_main_v4_apply,
    val_main_v3_apply, val_main_cst_apply, val_main_v2_apply, val_main_v1_apply, val_main_call0_v0_apply,
    val_main_call0_cst_apply, row_eq]
  exact Cert.Spec.ref_elem (W i) (T (Cert.Spec.rowOf i))

end Cert.ReferenceIdeal.RefValue

end
-- ==== Proof.KernelValue.lean ====
/-
  The kernel's result array is the specification's array `G`.

  The kernel runs on a grid of 8 × 2 points. Point `(a, b)` is handed rows `512·a … 512·a + 511`, columns
  `4096·b … 4096·b + 4095` of the weights (a 512 × 4096 block), rows `512·a … 512·a + 511` of the threshold column
  (a 512 × 1 block, whatever `b` is), computes one 512 × 4096 block from them in a single store, and that block is
  written back to the same rows and columns of the result.

  * `pay_apply`: inside a block, entry `(p, q)` of what the body stores is `elem` of the weight block's entry
    `(p, q)` and the threshold block's entry `(p, 0)`: every operation of the body is elementwise except the
    broadcast of the 512 × 1 logistic column along the lanes, which reads row `p`.
  * `flushed_eq`: so what point `t` writes back is block `t` of `G` of the whole arrays — entry `(p, q)` of the
    weight block at `(a, b)` is array entry `(512·a + p, 4096·b + q)`, entry `(p, 0)` of the threshold block is array
    entry `(512·a + p, 0)`, which is `rowOf` of the former. The relations between the three index maps are decided
    once over the sixteen points.
  * `cover`: array entry `(r, k)` lies in the block of the point whose block index is `(r / 512, k / 4096)`.
  * `final`, `run`: every entry is covered and every block is a block of `G`, so the array after the run is `G`.
-/
import proofs.«104819_j36532991820369_2_alg».proof.Proof.Gen.KernelIdeal.Frame
import proofs.«104819_j36532991820369_2_alg».proof.Proof.Spec
import Idealize.ShloMosaic.Lib.Pipeline.Value

noncomputable section

namespace Cert.KernelIdeal.Whole

open Cert.KernelIdeal Cert.KernelIdeal.Gen Idealize.ShloMosaic Idealize.ShloMosaic.TcCoe Idealize.SL.Sem
open Idealize.ShloMosaic.Pipeline (Dat)

variable (m : (ℓ : Loc nD τ sig) → Buf (Elt Ideal) ℓ) (ρ : Dev nD → PrngReg)

/-- The body's one store and its two loads are through the whole block: offsets zero on both axes. -/
theorem zeros : (![0, 0] : Fin 2 → Nat) = fun _ => 0 := funext fun a => by fin_cases a <;> rfl

/-- THE BODY AT ONE ENTRY. For any weight block `P0` and threshold block `P1`, entry `x = (p, q)` of the stored value
    is `elem` of `P0 (p, q)` and `P1 (p, 0)`; `r` is that `(p, 0)`, given by its two coordinates. -/
theorem pay_apply (P0 : Vec Ideal S512x4096 .f32) (P1 : Vec Ideal S512x1 .f32) (x : S512x4096.Idx) (r : S512x1.Idx)
    (h0 : (r 0).val = (x 0).val) (h1 : (r 1).val = 0) :
    k0_pay1 (F := Ideal) P0 P1 x = Cert.Spec.elem (P0 x) (P1 r) := by
  have hb : broadcastTo S512x4096 (logistic (F := Ideal) (φ := .f32) P1) broadcasts_S512x1_S512x4096 x
      = FloatOps.logistic (F := Ideal) (φ := .f32) (P1 r) :=
    broadcastTo_apply (logistic (F := Ideal) (φ := .f32) P1) broadcasts_S512x1_S512x4096 x r (fun a => match a with
      | ⟨0, _⟩ => by show (r 0).val = (if (512 : Nat) = 1 then 0 else (x 0).val); rw [if_neg (by decide)]; exact h0
      | ⟨1, _⟩ => by show (r 1).val = (if (1 : Nat) = 1 then 0 else (x 1).val); rw [if_pos rfl]; exact h1)
  refine Eq.trans ?_ (Cert.Spec.kernel_elem (P0 x) (P1 r))
  rw [← hb]
  rfl

/-- Entry `(p, 0)` of the threshold block, for entry `x = (p, q)` of the weight block. -/
abbrev col0 (x : S512x4096.Idx) : S512x1.Idx := fun a => match a with
  | ⟨0, _⟩ => ⟨(x 0).val, (x 0).isLt⟩
  | ⟨1, _⟩ => ⟨0, Nat.one_pos⟩

/-- THE BODY'S STORED BLOCK, whole: entry `x` is `elem` of the weight block at `x` and the threshold block at `col0 x`. -/
theorem pay_eq (P0 : Vec Ideal S512x4096 .f32) (P1 : Vec Ideal S512x1 .f32) :
    k0_pay1 (F := Ideal) P0 P1 = fun x => Cert.Spec.elem (P0 x) (P1 (col0 x)) :=
  funext fun x => pay_apply P0 P1 x (col0 x) rfl rfl

/-- The three index maps, decided over the sixteen grid points: the weight block and the result block have the same
    block index; the threshold block has the same row-block index and column-block index 0; and the result's block
    indices stay below 8 and 2. -/
theorem idx_facts : ∀ t : Fin cfg0.N, win0_0.index t (0 : Fin 2) = win0_2.index t (0 : Fin 2)
    ∧ win0_0.index t (1 : Fin 2) = win0_2.index t (1 : Fin 2)
    ∧ win0_1.index t (0 : Fin 2) = win0_2.index t (0 : Fin 2)
    ∧ win0_1.index t (1 : Fin 2) = 0
    ∧ win0_2.index t (0 : Fin 2) ≤ 7
    ∧ win0_2.index t (1 : Fin 2) ≤ 1 :=
  (by decide +kernel : ∀ t : Fin grid0.N, _)

/-- Every pair (row-block, column-block) is some grid point's block index. -/
theorem idx_onto : ∀ (q0 : Fin 8) (q1 : Fin 2), ∃ t : Fin cfg0.N, win0_2.index t = ![q0.val, q1.val] :=
  (by decide +kernel : ∀ (q0 : Fin 8) (q1 : Fin 2), ∃ t : Fin grid0.N, win0_2.index t = ![q0.val, q1.val])

/-- WHAT POINT `t` WRITES BACK is block `t` of `G` of the two argument arrays. -/
theorem flushed_eq (c : Dev nD) (t : Fin cfg0.N) :
    (dats m 0 c).flushed 2 t
      = ((cfg0.win 2).blk t).view.read (Elt Ideal) (Cert.Spec.G (V m c main_arg0) (V m c main_arg1)) := by
  show (cfg0.win 2).cut (grid0.coords t) ((dats m 0 c).after 2 t) = _
  rw [after0_2]
  unfold out0_2
  rw [View.canon_unit_zero zeros]
  simp only [View.ld_unit_zero (S := S512x4096) zeros, View.ld_unit_zero (S := S512x1) zeros]
  obtain ⟨e0, e1, e2, e3, -, -⟩ := idx_facts t
  rw [pay_eq]
  funext j
  show Cert.Spec.elem (V m c main_arg0 (((cfg0.win 0).blk t).view.emb j))
      (V m c main_arg1 (((cfg0.win 1).blk t).view.emb (col0 j)))
    = Cert.Spec.elem (V m c main_arg0 (((cfg0.win 2).blk t).view.emb j))
      (V m c main_arg1 (Cert.Spec.rowOf (((cfg0.win 2).blk t).view.emb j)))
  have h0 : ((cfg0.win 0).blk t).view.emb j = ((cfg0.win 2).blk t).view.emb j := by
    funext a; apply Fin.ext
    match a with
    | ⟨0, _⟩ => show win0_0.index t (0 : Fin 2) * 512 + 1 * (j 0).val = win0_2.index t (0 : Fin 2) * 512 + 1 * (j 0).val; omega
    | ⟨1, _⟩ => show win0_0.index t (1 : Fin 2) * 4096 + 1 * (j 1).val = win0_2.index t (1 : Fin 2) * 4096 + 1 * (j 1).val; omega
  have h1 : ((cfg0.win 1).blk t).view.emb (col0 j) = Cert.Spec.rowOf (((cfg0.win 2).blk t).view.emb j) := by
    funext a; apply Fin.ext
    match a with
    | ⟨0, _⟩ => show win0_1.index t (0 : Fin 2) * 512 + 1 * (j 0).val = win0_2.index t (0 : Fin 2) * 512 + 1 * (j 0).val; omega
    | ⟨1, _⟩ => show win0_1.index t (1 : Fin 2) * 1 + 1 * 0 = 0; omega
  rw [h0, h1]

/-- An entry of the result array is in point `t`'s block iff each coordinate is in the block's range on its axis. -/
theorem mem_blk (t : Fin cfg0.N) (i : S4096x8192.Idx) :
    i ∈ ((cfg0.win 2).blk t).view.set ↔ ∀ a : Fin 2, win0_2.index t a * S512x4096.size a ≤ (i a).val
      ∧ (i a).val < win0_2.index t a * S512x4096.size a + S512x4096.size a := by
  show i ∈ ((View.whole main_v0).slice (win0_2.rect t)).set ↔ _
  rw [View.set_slice_whole, Rect.mem_set_unit]
  exact Iff.rfl

/-- EVERY ENTRY IS WRITTEN: entry `(r, k)` is in the block of the point with block index `(r / 512, k / 4096)`, and
    every point writes its block back. -/
theorem cover (i : S4096x8192.Idx) :
    ∃ t : Fin cfg0.N, (cfg0.win 2).flush t = true ∧ i ∈ ((cfg0.win 2).blk t).view.set := by
  have hi0 : (i 0).val < 4096 := (i 0).isLt
  have hi1 : (i 1).val < 8192 := (i 1).isLt
  obtain ⟨t, ht⟩ := idx_onto ⟨(i 0).val / 512, by omega⟩ ⟨(i 1).val / 4096, by omega⟩
  have q0 : win0_2.index t (0 : Fin 2) = (i 0).val / 512 := congrFun ht 0
  have q1 : win0_2.index t (1 : Fin 2) = (i 1).val / 4096 := congrFun ht 1
  refine ⟨t, flush0_2 t, ?_⟩
  rw [mem_blk]
  intro a
  match a with
  | ⟨0, _⟩ => show win0_2.index t (0 : Fin 2) * 512 ≤ (i 0).val ∧ (i 0).val < win0_2.index t (0 : Fin 2) * 512 + 512; omega
  | ⟨1, _⟩ => show win0_2.index t (1 : Fin 2) * 4096 ≤ (i 1).val ∧ (i 1).val < win0_2.index t (1 : Fin 2) * 4096 + 4096; omega

/-- THE RESULT ARRAY after the run is `G` of the argument arrays as launched. -/
theorem final (c : Dev nD) : (dats m 0 c).arrAt 2 cfg0.N
    = Cert.Spec.G (m ((c : Thread nD τ).loc main_arg0)) (m ((c : Thread nD τ).loc main_arg1)) :=
  (dats m 0 c).arrAt_eq_of_cover 2 (Cert.Spec.G (V m c main_arg0) (V m c main_arg1)) (fun t _ => flushed_eq m c t) cover

/-- THE RUN: every weakly fair execution of the kernel program terminates with the result array at `G` of the
    arguments and the arguments unchanged (each is staged by an input window that never writes back). -/
theorem run : θ_run defs (onTc (τ := τ) (main (F := Ideal))) ⟨m, fun _ => 0, ρ⟩ fun r => ∀ c : Dev nD,
      r.2.mem ((c : Thread nD τ).loc main_v0)
        = Cert.Spec.G (m ((c : Thread nD τ).loc main_arg0)) (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨((h c).1 2).trans (final m c),
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c)))⟩)
    (run_main m ρ)

end Cert.KernelIdeal.Whole

end
-- ==== Proof.lean ====
/-
  The kernel masks a weight array by a learned per-row threshold:
      out (r, k) = sign (W (r, k)) · max (|W (r, k)| − σ (T (r, 0))) 0,     σ t = 1 / (1 + e^(−t)),
  for `W` of 4096 × 8192 entries and `T` a 4096 × 1 column, tile by tile over an 8 × 2 grid of 512 × 4096 blocks; the
  reference computes the same expression with whole-array operations. The claim has five parts.

  * The three frames (each program terminates without a fault and leaves its arguments unchanged). The kernel's two are
    the generated frame theorems; the reference has no kernel launch, so its frame is its generated run with the result
    forgotten.
  * `preserves`: the kernel's idealization replaced one window of bit operations — "1.0 carrying the sign bit of `w`" —
    by `−1` where `w < 0` and `1` elsewhere; the one conjunct is that rule's statement at the block's shape.
  * `algebraic`: on the extended reals both programs end with the SAME array, `Spec.G` of the arguments
    (Proof/Spec.lean). The reference's sixteen operations compose to `G` entry by entry (Proof/RefValue.lean); the
    kernel's grid writes, block by block, the blocks of `G`, and the blocks cover the array (Proof/KernelValue.lean).
    Two laws join the two spellings, both proved in Proof/Spec.lean: the sign chosen by comparisons is the sign, and the
    logistic function is by definition the quotient `1 / (1 + exp (−t))` the reference writes out. Neither law needs a
    finite argument, so the precondition is never opened.
-/
import proofs.«104819_j36532991820369_2_alg».proof.Defs
import proofs.«104819_j36532991820369_2_alg».proof.Proof.Gen.Kernel
import proofs.«104819_j36532991820369_2_alg».proof.Proof.Gen.Kernel.Frame
import proofs.«104819_j36532991820369_2_alg».proof.Proof.Gen.KernelIdeal
import proofs.«104819_j36532991820369_2_alg».proof.Proof.Gen.KernelIdeal.Frame
import proofs.«104819_j36532991820369_2_alg».proof.Proof.Gen.ReferenceIdeal
import proofs.«104819_j36532991820369_2_alg».proof.Proof.Gen.ReferenceIdeal.Run
import proofs.«104819_j36532991820369_2_alg».proof.Proof.Gen.ReferenceIdeal.Read
import proofs.«104819_j36532991820369_2_alg».proof.Proof.Gen.Pre_finite_inputs
import proofs.«104819_j36532991820369_2_alg».proof.Proof.Spec
import proofs.«104819_j36532991820369_2_alg».proof.Proof.RefValue
import proofs.«104819_j36532991820369_2_alg».proof.Proof.KernelValue
import Idealize.ShloMosaic.Adequacy
import Idealize.ShloMosaic.Init

noncomputable section

namespace Cert.Proof

open Idealize.ShloMosaic Idealize.SL.Sem

/-- The kernel as printed runs and keeps its arguments. -/
theorem frame_kernel : Cert.frame_Kernel := fun m ρ _ => Cert.Kernel.Gen.frame m ρ

/-- So does its idealization. -/
theorem frame_kernelIdeal : Cert.frame_KernelIdeal := fun m ρ _ => Cert.KernelIdeal.Gen.frame m ρ

/-- The reference is host operations only: its run, with what it says of the result dropped, is its frame. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The one rewrite of the idealization, "1.0 with the sign bit of `w`" read as `−1` below zero and `1` from zero up, at
    the 512 × 4096 block it was applied to. -/
theorem preserves : Cert.preserves_Kernel_KernelIdeal := IdealRules.sign_bit.statement Cert.KernelIdeal.S512x4096 .f32

/-- Both idealized programs, from memories that agree on the weights and the thresholds, end with the result array at
    `Spec.G` of the kernel's arguments: the kernel by its run, the reference by its run, its term read as `G` and its
    arguments rewritten to the kernel's. -/
theorem algebraic : Cert.algebraic_KernelIdeal_ReferenceIdeal := by
  intro m ρ m' ρ' _ hagree
  refine ⟨_, Cert.KernelIdeal.Whole.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v11_eq, Cert.ReferenceIdeal.RefValue.result_eq, (hagree c).1, (hagree c).2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
